-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S8000x64 : Shape := ⟨2, ![8000, 64]⟩
abbrev S8000x128 : Shape := ⟨2, ![8000, 128]⟩
abbrev S1x128 : Shape := ⟨2, ![1, 128]⟩
abbrev S1x64 : Shape := ⟨2, ![1, 64]⟩

abbrev nBuf : Space → Nat
  | .hbm => 33
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x64, .f32⟩
  | .hbm, ⟨31, _⟩ => ⟨S800000x64, .bf16⟩
  | .hbm, ⟨32, _⟩ => ⟨S800000x64, .f32⟩
  | .local _ .vmem, ⟨0, _⟩ => ⟨S8000x64, .bf16⟩
  | .local _ .vmem, ⟨1, _⟩ => ⟨S8000x64, .bf16⟩
  | .local _ .vmem, ⟨2, _⟩ => ⟨S64x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S8000x64, .f32⟩
  | .local _ .vmem, ⟨9, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  gather_S50000x64_S800000x1_S800000x64_1_0_n_n_0_1_164_wf : GatherDims.WF S50000x64 S800000x1 S800000x64 [1] [0] [] [0] [] 1 ![1, 64]
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S800000x64.size a
  hwx0_7 : ∀ i : grid0.Coords, EltTy.bits .f32 = 32 ∨ (Rect.block (s := S800000x64) S8000x64.size (cc0_transform_7 i) (hinb0_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_v19) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128 : Shape := ⟨2, ![1, 128]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x64, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .i1⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .i1⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S800000x64, .f32⟩
  | .hbm, ⟨54, _⟩ => ⟨S1x64, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S800000x64, .f32⟩
  | .hbm, ⟨59, _⟩ => ⟨S800000x64, .i1⟩
  | .hbm, ⟨60, _⟩ => ⟨S_, .f32⟩
  | .hbm, ⟨61, _⟩ => ⟨S800000x64, .f32⟩
  | .hbm, ⟨62, _⟩ => ⟨S800000x64, .f32⟩
  | .hbm, ⟨63, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  gather_S50000x64_S800000x1_S800000x64_1_0_n_n_0_1_164_wf : GatherDims.WF S50000x64 S800000x1 S800000x64 [1] [0] [] [0] [] 1 ![1, 64]
  dot_S800000x64_S64x128_S800000x128_1_0_0_1_n_n_wf : DotDims.WF S800000x64 S64x128 S800000x128 [1] [0] [0] [1] [] []
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.RowMlp.lean ====
/-
  The function both programs compute, stated once and row by row, over the extended reals.

  An edge's feature row `e : Fin 64 → EReal` goes through three dense layers, each followed by the leaky
  rectifier with slope the f32 literal 0.05:

      h¹ c = leaky (∑ k, e k · W0 (k, c) + b0 c)          c < 128
      h² c = leaky (∑ k, h¹ k · W1 (k, c) + b1 c)         c < 128
      out c = leaky (∑ k, h² k · W2 (k, c) + b2 c)        c < 64

  where `leaky y = y` when `0 ≤ y` and `0.05 · y` otherwise. An output row depends on the one input row of the
  same number and on the weights, on nothing else: that is what lets a program compute the rows in blocks of any
  size, and what makes the blocked computation and the whole-array one the same function. Both slope and threshold
  stay the literal words the programs print; nothing here evaluates them.
-/
import Idealize.ShloMosaic.PureOps.Ideal
import Idealize.ShloMosaic.Lib.ValueIdx

noncomputable section

namespace Cert.RowMlp

open Idealize.ShloMosaic Idealize.ShloMosaic.ValueIdx

/-- The leaky rectifier on an extended real: `y` itself when `0 ≤ y`, the slope literal times `y` otherwise. -/
def leaky (y : EReal) : EReal :=
  Scalar.select (Ideal.cmp .oge y (Ideal.ofBits .f32 0x00000000#32)) y (Ideal.ofBits .f32 0x3D4CCCCD#32 * y)

/-- One dense layer and its rectifier at output column `c`: the input row `h` against column `c` of the
    weight matrix, plus the bias at `c`. -/
def layer {K C : ℕ} (W : (⟨2, ![K, C]⟩ : Shape).Idx → EReal) (b : (⟨1, ![C]⟩ : Shape).Idx → EReal)
    (h : Fin K → EReal) (c : Fin C) : EReal :=
  leaky ((∑ k : Fin K, h k * W (ix2 k c)) + b (ix1 c))

/-- The three layers composed: an output row of 64 entries from an input row of 64 entries. -/
def row (W0 : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (e : Fin 64 → EReal) : Fin 64 → EReal :=
  layer W2 b2 (layer W1 b1 (layer W0 b0 e))

/-- An array of `R` rows taken through the three layers row by row: entry `(r, q)` is entry `q` of the image
    of row `r`. -/
def rows {R : ℕ} (E : (⟨2, ![R, 64]⟩ : Shape).Idx → EReal)
    (W0 : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (⟨2, ![R, 64]⟩ : Shape).Idx → EReal :=
  fun i => row W0 b0 W1 b1 W2 b2 (fun k => E (ix2 (i 0) k)) (i 1)

/-- The same at an index given by its coordinates. -/
theorem rows_ix2 {R : ℕ} (E : (⟨2, ![R, 64]⟩ : Shape).Idx → EReal)
    (W0 : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (r : Fin R) (q : Fin 64) :
    rows E W0 b0 W1 b1 W2 b2 (ix2 r q) = row W0 b0 W1 b1 W2 b2 (fun k => E (ix2 r k)) q := rfl

end Cert.RowMlp

end
-- ==== Proof.KernelDots.lean ====
/-
  The three matrix products of the kernel's body, each read at an entry as a plain sum.

  A product's printed form sums over the index type of its contracted axes and reads its factors through the
  product's own index maps. Each product here contracts the left factor's axis 1 with the right factor's axis 0
  and has no batch axis, so at the output entry `(p, c)` the left factor is read at `(p, k)` and the right one at
  `(k, c)`, `k` running over the shared extent. The lemmas below say so for the three shapes
  [8000,64]·[64,128], [8000,128]·[128,128] and [8000,128]·[128,64], with the sum re-indexed over `Fin K`.
-/
import proofs.«154936_j32504312496840_2_alg».proof.Proof.Gen.KernelIdeal
import Idealize.ShloMosaic.Lib.ValueIdx
import Idealize.ShloMosaic.PureOps.Ideal.Laws

noncomputable section

namespace Cert.KernelIdeal.Rows

open Cert.KernelIdeal Cert.KernelIdeal.Gen Idealize.ShloMosaic Idealize.ShloMosaic.ValueIdx

/-! ## S8000x64 against S64x128 -/

theorem dotA_lhs0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl

theorem dotA_lhs1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q

theorem dotA_rhs0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q

theorem dotA_rhs1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- Entry `(p, c)` of the product: row `p` of the left factor against column `c` of the right one, summed over
    the 64 shared coordinates. -/
theorem dotA_sum (f : S8000x64.Idx → EReal) (g : S64x128.Idx → EReal) (p : Fin 8000) (c : Fin 128) :
    (∑ k : dot_S8000x64_S64x128_S8000x128_1_0_0_1_n_n.contr.Idx, f (dot_S8000x64_S64x128_S8000x128_1_0_0_1_n_n.lhsIdx (ix2 p c) k) * g (dot_S8000x64_S64x128_S8000x128_1_0_0_1_n_n.rhsIdx (ix2 p c) k))
      = ∑ k : Fin 64, f (ix2 p k) * g (ix2 k c) := by
  rw [← Equiv.sum_comp (ValueIdx.contrEquiv1 dot_S8000x64_S64x128_S8000x128_1_0_0_1_n_n 64 rfl rfl).symm]
  refine Finset.sum_congr rfl fun k _ => ?_
  have hk := ValueIdx.contrEquiv1_symm_val dot_S8000x64_S64x128_S8000x128_1_0_0_1_n_n 64 rfl rfl k
  have el : dot_S8000x64_S64x128_S8000x128_1_0_0_1_n_n.lhsIdx (ix2 p c) ((ValueIdx.contrEquiv1 dot_S8000x64_S64x128_S8000x128_1_0_0_1_n_n 64 rfl rfl).symm k) = ix2 p k := funext fun a => Fin.ext (by
    match a with
    | ⟨0, _⟩ => exact dotA_lhs0 _ _
    | ⟨1, _⟩ => exact (dotA_lhs1 _ _).trans hk)
  have er : dot_S8000x64_S64x128_S8000x128_1_0_0_1_n_n.rhsIdx (ix2 p c) ((ValueIdx.contrEquiv1 dot_S8000x64_S64x128_S8000x128_1_0_0_1_n_n 64 rfl rfl).symm k) = ix2 k c := funext fun a => Fin.ext (by
    match a with
    | ⟨0, _⟩ => exact (dotA_rhs0 _ _).trans hk
    | ⟨1, _⟩ => exact dotA_rhs1 _ _)
  rw [el, er]

/-! ## S8000x128 against S128x128 -/

theorem dotB_lhs0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl

theorem dotB_lhs1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q

theorem dotB_rhs0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q

theorem dotB_rhs1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- Entry `(p, c)` of the product: row `p` of the left factor against column `c` of the right one, summed over
    the 128 shared coordinates. -/
theorem dotB_sum (f : S8000x128.Idx → EReal) (g : S128x128.Idx → EReal) (p : Fin 8000) (c : Fin 128) :
    (∑ k : dot_S8000x128_S128x128_S8000x128_1_0_0_1_n_n.contr.Idx, f (dot_S8000x128_S128x128_S8000x128_1_0_0_1_n_n.lhsIdx (ix2 p c) k) * g (dot_S8000x128_S128x128_S8000x128_1_0_0_1_n_n.rhsIdx (ix2 p c) k))
      = ∑ k : Fin 128, f (ix2 p k) * g (ix2 k c) := by
  rw [← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p c) ((ValueIdx.contrEquiv1 dot_S8000x128_S128x128_S8000x128_1_0_0_1_n_n 128 rfl rfl).symm k) = ix2 p k := funext fun a => Fin.ext (by
    match a with
    | ⟨0, _⟩ => exact dotB_lhs0 _ _
    | ⟨1, _⟩ => exact (dotB_lhs1 _ _).trans hk)
  have er : dot_S8000x128_S128x128_S8000x128_1_0_0_1_n_n.rhsIdx (ix2 p c) ((ValueIdx.contrEquiv1 dot_S8000x128_S128x128_S8000x128_1_0_0_1_n_n 128 rfl rfl).symm k) = ix2 k c := funext fun a => Fin.ext (by
    match a with
    | ⟨0, _⟩ => exact (dotB_rhs0 _ _).trans hk
    | ⟨1, _⟩ => exact dotB_rhs1 _ _)
  rw [el, er]

/-! ## S8000x128 against S128x64 -/

theorem dotC_lhs0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl

theorem dotC_lhs1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q

theorem dotC_rhs0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q

theorem dotC_rhs1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- Entry `(p, c)` of the product: row `p` of the left factor against column `c` of the right one, summed over
    the 128 shared coordinates. -/
theorem dotC_sum (f : S8000x128.Idx → EReal) (g : S128x64.Idx → EReal) (p : Fin 8000) (c : Fin 64) :
    (∑ k : dot_S8000x128_S128x64_S8000x64_1_0_0_1_n_n.contr.Idx, f (dot_S8000x128_S128x64_S8000x64_1_0_0_1_n_n.lhsIdx (ix2 p c) k) * g (dot_S8000x128_S128x64_S8000x64_1_0_0_1_n_n.rhsIdx (ix2 p c) k))
      = ∑ k : Fin 128, f (ix2 p k) * g (ix2 k c) := by
  rw [← Equiv.sum_comp (ValueIdx.contrEquiv1 dot_S8000x128_S128x64_S8000x64_1_0_0_1_n_n 128 rfl rfl).symm]
  refine Finset.sum_congr rfl fun k _ => ?_
  have hk := ValueIdx.contrEquiv1_symm_val dot_S8000x128_S128x64_S8000x64_1_0_0_1_n_n 128 rfl rfl k
  have el : dot_S8000x128_S128x64_S8000x64_1_0_0_1_n_n.lhsIdx (ix2 p c) ((ValueIdx.contrEquiv1 dot_S8000x128_S128x64_S8000x64_1_0_0_1_n_n 128 rfl rfl).symm k) = ix2 p k := funext fun a => Fin.ext (by
    match a with
    | ⟨0, _⟩ => exact dotC_lhs0 _ _
    | ⟨1, _⟩ => exact (dotC_lhs1 _ _).trans hk)
  have er : dot_S8000x128_S128x64_S8000x64_1_0_0_1_n_n.rhsIdx (ix2 p c) ((ValueIdx.contrEquiv1 dot_S8000x128_S128x64_S8000x64_1_0_0_1_n_n 128 rfl rfl).symm k) = ix2 k c := funext fun a => Fin.ext (by
    match a with
    | ⟨0, _⟩ => exact (dotC_rhs0 _ _).trans hk
    | ⟨1, _⟩ => exact dotC_rhs1 _ _)
  rw [el, er]

end Cert.KernelIdeal.Rows

end
-- ==== Proof.KernelBody.lean ====
/-
  What the kernel's body computes from its loaded blocks, read at an entry.

  The body holds a block of 8000 feature rows and the six weight arrays whole. It forms the three layers as whole
  vectors — a product into a zero accumulator, the bias row spread over the 8000 rows, the rectifier entry by
  entry — rounding to the narrow float format before each product (no change on the extended reals). Entry
  `(p, q)` of what it stores is therefore entry `q` of the image of the block's row `p` under `RowMlp.row`:
  the products are sums over the shared coordinate, the spread bias is the bias at the column, the rectifier
  acts on one entry at a time.
-/
import proofs.«154936_j32504312496840_2_alg».proof.Proof.Gen.KernelIdeal.Skeleton
import proofs.«154936_j32504312496840_2_alg».proof.Proof.RowMlp
import proofs.«154936_j32504312496840_2_alg».proof.Proof.KernelDots
import Idealize.ShloMosaic.Lib.ValueLayout

noncomputable section

namespace Cert.KernelIdeal.Rows

open Cert.KernelIdeal Cert.KernelIdeal.Gen Idealize.ShloMosaic Idealize.ShloMosaic.ValueIdx

/-- The rectifier applied to every entry of a vector, in the body's spelling: compare with the zero splat, scale by
    the slope splat, select. -/
def act (S : Shape) (v : FVec Ideal S .f32) : FVec Ideal S .f32 :=
  select (cmpf .oge v (broadcast S (Scalar.ofBits (F := Ideal) .f32 0x00000000#32))) v
    (mulf (broadcast S (Scalar.ofBits (F := Ideal) .f32 0x3D4CCCCD#32)) v)

theorem act_apply (S : Shape) (v : FVec Ideal S .f32) (i : S.Idx) : act S v i = RowMlp.leaky (v i) := rfl

/-- The first hidden layer of the block, as the body forms it. -/
def hid1 (x0 : FVec Ideal S8000x64 .bf16) (x1 : FVec Ideal S64x128 .f32) (x2 : FVec Ideal S128 .f32) : FVec Ideal S8000x128 .f32 :=
  act S8000x128 (addf
    (matmul dot_S8000x64_S64x128_S8000x128_1_0_0_1_n_n none (shapeCast S8000x64 x0 shapeCasts_S8000x64_S8000x64)
      (truncf .bf16 x1 bitsLt_bf16_f32) (constant S8000x128 .f32 0x00000000#32))
    (broadcastTo S8000x128 (shapeCast S1x128 x2 shapeCasts_S128_S1x128) broadcasts_S1x128_S8000x128))

/-- The second hidden layer, from the first. -/
def hid2 (h1 : FVec Ideal S8000x128 .f32) (x3 : FVec Ideal S128x128 .f32) (x4 : FVec Ideal S128 .f32) : FVec Ideal S8000x128 .f32 :=
  act S8000x128 (addf
    (matmul dot_S8000x128_S128x128_S8000x128_1_0_0_1_n_n none (truncf .bf16 h1 bitsLt_bf16_f32)
      (truncf .bf16 x3 bitsLt_bf16_f32) (constant S8000x128 .f32 0x00000000#32))
    (broadcastTo S8000x128 (shapeCast S1x128 x4 shapeCasts_S128_S1x128) broadcasts_S1x128_S8000x128))

/-- The output layer, from the second hidden layer. -/
def outv (h2 : FVec Ideal S8000x128 .f32) (x5 : FVec Ideal S128x64 .f32) (x6 : FVec Ideal S64 .f32) : FVec Ideal S8000x64 .f32 :=
  act S8000x64 (addf
    (matmul dot_S8000x128_S128x64_S8000x64_1_0_0_1_n_n none (truncf .bf16 h2 bitsLt_bf16_f32)
      (truncf .bf16 x5 bitsLt_bf16_f32) (constant S8000x64 .f32 0x00000000#32))
    (broadcastTo S8000x64 (shapeCast S1x64 x6 shapeCasts_S64_S1x64) broadcasts_S1x64_S8000x64))

/-- The value the body stores is the three layers composed. -/
theorem stored_eq (x0 : FVec Ideal S8000x64 .bf16) (x1 : FVec Ideal S64x128 .f32) (x2 : FVec Ideal S128 .f32)
    (x3 : FVec Ideal S128x128 .f32) (x4 : FVec Ideal S128 .f32) (x5 : FVec Ideal S128x64 .f32) (x6 : FVec Ideal S64 .f32) :
    k0_pay1 (F := Ideal) (k0_pay2 (F := Ideal) x0 x1 x2 x3 x4 x5 x6) (k0_pay3 (F := Ideal) x0 x1 x2 x3 x4 x5 x6) (k0_pay4 (F := Ideal) x0 x1 x2 x3 x4 x5 x6)
      = outv (hid2 (hid1 x0 x1 x2) x3 x4) x5 x6 := rfl

/-- Entry `(p, c)` of the first hidden layer: the block's row `p` through the first layer, at column `c`. -/
theorem hid1_apply (x0 : FVec Ideal S8000x64 .bf16) (x1 : FVec Ideal S64x128 .f32) (x2 : FVec Ideal S128 .f32)
    (p : Fin 8000) (c : Fin 128) :
    hid1 x0 x1 x2 (ix2 p c) = RowMlp.layer x1 x2 (fun k => x0 (ix2 p k)) c := by
  unfold hid1
  rw [act_apply, addf_apply]
  unfold RowMlp.layer
  refine congrArg RowMlp.leaky (congrArg₂ (· + ·) ?_ ?_)
  · refine (Ideal.matmul_constant_zero_apply _ none _ _ (ix2 p c)).trans ?_
    refine (dotA_sum _ _ p c).trans ?_
    rw [shapeCast_self]
    rfl
  · refine (broadcastTo_1b_ab_apply _ _ p c).trans ?_
    exact shapeCast_a_1a_apply x2 _ 0 c

/-- Entry `(p, c)` of the second hidden layer: row `p` of the first through the second layer, at column `c`. -/
theorem hid2_apply (h1 : FVec Ideal S8000x128 .f32) (x3 : FVec Ideal S128x128 .f32) (x4 : FVec Ideal S128 .f32)
    (p : Fin 8000) (c : Fin 128) :
    hid2 h1 x3 x4 (ix2 p c) = RowMlp.layer x3 x4 (fun k => h1 (ix2 p k)) c := by
  unfold hid2
  rw [act_apply, addf_apply]
  unfold RowMlp.layer
  refine congrArg RowMlp.leaky (congrArg₂ (· + ·) ?_ ?_)
  · refine (Ideal.matmul_constant_zero_apply _ none _ _ (ix2 p c)).trans ?_
    exact dotB_sum _ _ p c
  · refine (broadcastTo_1b_ab_apply _ _ p c).trans ?_
    exact shapeCast_a_1a_apply x4 _ 0 c

/-- Entry `(p, q)` of the output layer: row `p` of the second hidden layer through the last layer, at column `q`. -/
theorem outv_apply (h2 : FVec Ideal S8000x128 .f32) (x5 : FVec Ideal S128x64 .f32) (x6 : FVec Ideal S64 .f32)
    (p : Fin 8000) (q : Fin 64) :
    outv h2 x5 x6 (ix2 p q) = RowMlp.layer x5 x6 (fun k => h2 (ix2 p k)) q := by
  unfold outv
  rw [act_apply, addf_apply]
  unfold RowMlp.layer
  refine congrArg RowMlp.leaky (congrArg₂ (· + ·) ?_ ?_)
  · refine (Ideal.matmul_constant_zero_apply _ none _ _ (ix2 p q)).trans ?_
    exact dotC_sum _ _ p q
  · refine (broadcastTo_1b_ab_apply _ _ p q).trans ?_
    exact shapeCast_a_1a_apply x6 _ 0 q

/-- ENTRY `(p, q)` OF WHAT THE BODY STORES is entry `q` of the image of the feature block's row `p`. -/
theorem stored_apply (x0 : FVec Ideal S8000x64 .bf16) (x1 : FVec Ideal S64x128 .f32) (x2 : FVec Ideal S128 .f32)
    (x3 : FVec Ideal S128x128 .f32) (x4 : FVec Ideal S128 .f32) (x5 : FVec Ideal S128x64 .f32) (x6 : FVec Ideal S64 .f32)
    (p : Fin 8000) (q : Fin 64) :
    k0_pay1 (F := Ideal) (k0_pay2 (F := Ideal) x0 x1 x2 x3 x4 x5 x6) (k0_pay3 (F := Ideal) x0 x1 x2 x3 x4 x5 x6) (k0_pay4 (F := Ideal) x0 x1 x2 x3 x4 x5 x6) (ix2 p q)
      = RowMlp.row x1 x2 x3 x4 x5 x6 (fun k => x0 (ix2 p k)) q := by
  rw [stored_eq, outv_apply]
  unfold RowMlp.row
  refine congrArg (fun h => RowMlp.layer x5 x6 h q) (funext fun k => ?_)
  rw [hid2_apply]
  refine congrArg (fun h => RowMlp.layer x3 x4 h k) (funext fun k' => ?_)
  exact hid1_apply x0 x1 x2 p k'

end Cert.KernelIdeal.Rows

end
-- ==== Proof.KernelArray.lean ====
/-
  From the blocks the kernel writes back to the whole result array.

  The grid has 100 points. At point `t` the feature window holds rows `8000·t … 8000·t + 7999` of the feature
  array (the sum of the two gathers, formed before the region), each of the six weight windows holds its whole
  array, and the output window's block is rows `8000·t … 8000·t + 7999` of the result. The body's stored value at
  `(p, q)` is the image of the feature block's row `p` (KernelBody), so what point `t` writes back is block `t` of
  `RowMlp.rows` of the feature array: a row's image depends on that row alone, so computing it inside a block of
  8000 rows or inside the whole array of 800000 gives the same entry. Row `r` lies in the block of point
  `r / 8000` and every point writes its block back, so the blocks cover the array and the result array ends
  holding `RowMlp.rows` of the feature array.
-/
import proofs.«154936_j32504312496840_2_alg».proof.Proof.Gen.KernelIdeal.Value
import proofs.«154936_j32504312496840_2_alg».proof.Proof.KernelBody
import Idealize.ShloMosaic.Lib.Pipeline.Value

noncomputable section

namespace Cert.KernelIdeal.Rows

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The offsets of a rectangle that starts at the origin of a two-axis buffer are all zero. -/
theorem hz2 : (![0, 0] : Fin 2 → Nat) = fun _ => 0 := funext fun a => by fin_cases a <;> rfl
/-- The same for a one-axis buffer. -/
theorem hz1 : (![0] : Fin 1 → Nat) = fun _ => 0 := funext fun a => by fin_cases a <;> rfl

/-- The windows' block indices at every one of the 100 points, decided: the feature window and the output window are
    on block `(t, 0)`; every weight window stays on its block at the origin. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## The weight windows -/

/-- The first weight matrix is staged whole at every point: its one block is the array. -/
theorem wblk1 (c : Dev nD) (t : Fin cfg0.N) : (iblk m c 1 t : FVec Ideal S64x128 .f32) = V m c main_arg2 := by
  obtain ⟨-, -, -, -, e0, e1, -⟩ := idx_facts t
  funext y
  unfold iblk
  rw [View.read_apply]
  show V m c main_arg2 (((cfg0.win 1).blk t).view.emb y) = V m c main_arg2 y
  refine congrArg (V m c main_arg2) (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The first bias is staged whole at every point: its one block is the array. -/
theorem wblk2 (c : Dev nD) (t : Fin cfg0.N) : (iblk m c 2 t : FVec Ideal S128 .f32) = V m c main_arg3 := by
  obtain ⟨-, -, -, -, -, -, e0, -⟩ := idx_facts t
  funext y
  unfold iblk
  rw [View.read_apply]
  show V m c main_arg3 (((cfg0.win 2).blk t).view.emb y) = V m c main_arg3 y
  refine congrArg (V m c main_arg3) (funext fun a => Fin.ext ?_)
  match a with
  | ⟨0, _⟩ => show win0_2.index t (0 : Fin 1) * 128 + 1 * (y 0).val = (y 0).val; omega

/-- The second weight matrix is staged whole at every point: its one block is the array. -/
theorem wblk3 (c : Dev nD) (t : Fin cfg0.N) : (iblk m c 3 t : FVec Ideal S128x128 .f32) = V m c main_arg4 := by
  obtain ⟨-, -, -, -, -, -, -, e0, e1, -⟩ := idx_facts t
  funext y
  unfold iblk
  rw [View.read_apply]
  show V m c main_arg4 (((cfg0.win 3).blk t).view.emb y) = V m c main_arg4 y
  refine congrArg (V m c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias is staged whole at every point: its one block is the array. -/
theorem wblk4 (c : Dev nD) (t : Fin cfg0.N) : (iblk m c 4 t : FVec Ideal S128 .f32) = V m c main_arg5 := by
  obtain ⟨-, -, -, -, -, -, -, -, -, e0, -⟩ := idx_facts t
  funext y
  unfold iblk
  rw [View.read_apply]
  show V m c main_arg5 (((cfg0.win 4).blk t).view.emb y) = V m c main_arg5 y
  refine congrArg (V m c main_arg5) (funext fun a => Fin.ext ?_)
  match a with
  | ⟨0, _⟩ => show win0_4.index t (0 : Fin 1) * 128 + 1 * (y 0).val = (y 0).val; omega

/-- The third weight matrix is staged whole at every point: its one block is the array. -/
theorem wblk5 (c : Dev nD) (t : Fin cfg0.N) : (iblk m c 5 t : FVec Ideal S128x64 .f32) = V m c main_arg6 := by
  obtain ⟨-, -, -, -, -, -, -, -, -, -, e0, e1, -⟩ := idx_facts t
  funext y
  unfold iblk
  rw [View.read_apply]
  show V m c main_arg6 (((cfg0.win 5).blk t).view.emb y) = V m c main_arg6 y
  refine congrArg (V m c main_arg6) (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

/-- The third bias is staged whole at every point: its one block is the array. -/
theorem wblk6 (c : Dev nD) (t : Fin cfg0.N) : (iblk m c 6 t : FVec Ideal S64 .f32) = V m c main_arg7 := by
  obtain ⟨-, -, -, -, -, -, -, -, -, -, -, -, e0⟩ := idx_facts t
  funext y
  unfold iblk
  rw [View.read_apply]
  show V m c main_arg7 (((cfg0.win 6).blk t).view.emb y) = V m c main_arg7 y
  refine congrArg (V m c main_arg7) (funext fun a => Fin.ext ?_)
  match a with
  | ⟨0, _⟩ => show win0_6.index t (0 : Fin 1) * 64 + 1 * (y 0).val = (y 0).val; omega

/-! ## The feature window and the output window -/

/-- Row `p` of the block at point `t` is row `8000 · t + p` of the array. -/
def rowOf (t : Fin cfg0.N) (p : Fin 8000) : Fin 800000 :=
  ⟨8000 * t.val + p.val, by
    have hN : cfg0.N = 100 := N_0
    have ht : t.val < cfg0.N := t.isLt
    have hp : p.val < 8000 := p.isLt
    omega⟩

/-- The feature block at point `t`, read at `(p, k)`: the feature array as the region finds it, at row `8000 · t + p`. -/
theorem fblk_apply (c : Dev nD) (t : Fin cfg0.N) (p : Fin 8000) (k : Fin 64) :
    (iblk m c 0 t : FVec Ideal S8000x64 .bf16) (ix2 p k) = V m c main_v19 (ix2 (rowOf t p) k) := by
  obtain ⟨e0, e1, -⟩ := idx_facts t
  unfold iblk
  rw [View.read_apply]
  show V m c main_v19 (((cfg0.win 0).blk t).view.emb (ix2 p k)) = V m c main_v19 (ix2 (rowOf t p) k)
  refine congrArg (V m c main_v19) (funext fun a => Fin.ext ?_)
  match a with
  | ⟨0, _⟩ => show win0_0.index t (0 : Fin 2) * 8000 + 1 * p.val = 8000 * t.val + p.val; omega
  | ⟨1, _⟩ => show win0_0.index t (1 : Fin 2) * 64 + 1 * k.val = k.val; omega

/-- Entry `(p, q)` of the output block at point `t` sits at row `8000 · t + p`, column `q` of the result array. -/
theorem oblk_emb (t : Fin cfg0.N) (p : Fin 8000) (q : Fin 64) :
    ((cfg0.win 7).blk t).view.emb (ix2 p q) = ix2 (rowOf t p) q := by
  obtain ⟨-, -, e0, e1, -⟩ := idx_facts t
  refine funext fun a => Fin.ext ?_
  match a with
  | ⟨0, _⟩ => show win0_7.index t (0 : Fin 2) * 8000 + 1 * p.val = 8000 * t.val + p.val; omega
  | ⟨1, _⟩ => show win0_7.index t (1 : Fin 2) * 64 + 1 * q.val = q.val; omega

/-- An array read through the output block at point `t`, at `(p, q)`: the array at row `8000 · t + p`, column `q`. -/
theorem oblk_read (G : S800000x64.Idx → EReal) (t : Fin cfg0.N) (p : Fin 8000) (q : Fin 64) :
    ((cfg0.win 7).blk t).view.read (Elt Ideal) G (ix2 p q) = G (ix2 (rowOf t p) q) := by
  rw [View.read_apply, oblk_emb]
  rfl

/-! ## The result array -/

/-- What the result array ends holding: the feature array the region finds, taken through the three layers row by row
    with the weights as the region finds them. -/
abbrev result (c : Dev nD) : S800000x64.Idx → EReal :=
  RowMlp.rows (R := 800000) (V m c main_v19) (V m c main_arg2) (V m c main_arg3) (V m c main_arg4) (V m c main_arg5)
    (V m c main_arg6) (V m c main_arg7)

/-- WHAT POINT `t` WRITES BACK is block `t` of `result`: the body's stored value at `(p, q)` is the image of the
    block's row `p`, which is row `8000 · t + p` of the feature array, and that is where the block's entry lands. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz2]
  simp only [View.ld_unit_zero (S := S8000x64) hz2, View.ld_unit_zero (S := S64x128) hz2, View.ld_unit_zero (S := S128) hz1, View.ld_unit_zero (S := S128x128) hz2, View.ld_unit_zero (S := S128x64) hz2, View.ld_unit_zero (S := S64) hz1]
  rw [wblk1, wblk2, wblk3, wblk4, wblk5, wblk6]
  refine funext fun (j : S8000x64.Idx) => ?_
  obtain ⟨p, q, rfl⟩ : ∃ (p : Fin 8000) (q : Fin 64), j = ix2 p q := ⟨j 0, j 1, eq_ix2 j⟩
  rw [oblk_read]
  refine (stored_apply _ _ _ _ _ _ _ p q).trans ?_
  refine Eq.trans ?_ (RowMlp.rows_ix2 (V m c main_v19) (V m c main_arg2) (V m c main_arg3) (V m c main_arg4) (V m c main_arg5)
    (V m c main_arg6) (V m c main_arg7) (rowOf t p) q).symm
  refine congrArg (fun e => RowMlp.row (V m c main_arg2) (V m c main_arg3) (V m c main_arg4) (V m c main_arg5) (V m c main_arg6) (V m c main_arg7) e q) (funext fun k => ?_)
  exact fblk_apply m c t p k

/-! ## The blocks tile the array -/

/-- An index of the result array is in point `t`'s block iff each coordinate is in the block's range on its axis. -/
theorem mem_oblk (t : Fin cfg0.N) (i : S800000x64.Idx) :
    i ∈ ((cfg0.win 7).blk t).view.set ↔ ∀ a : Fin 2, win0_7.index t a * S8000x64.size a ≤ (i a).val ∧ (i a).val < win0_7.index t a * S8000x64.size a + S8000x64.size a := by
  show i ∈ ((View.whole main_v20).slice (win0_7.rect t)).set ↔ _
  rw [View.set_slice_whole, Rect.mem_set_unit]
  exact Iff.rfl

/-- Every index of the result array is in some point's block: row `r` belongs to point `r / 8000`, and every point
    writes its block back. -/
theorem covered (i : S800000x64.Idx) :
    ∃ t : Fin cfg0.N, (cfg0.win 7).flush t = true ∧ i ∈ ((cfg0.win 7).blk t).view.set := by
  have hN : cfg0.N = 100 := N_0
  have hi0 : (i 0).val < 800000 := (i 0).isLt
  have hi1 : (i 1).val < 64 := (i 1).isLt
  obtain ⟨t, ht⟩ : ∃ t : Fin cfg0.N, t.val = (i 0).val / 8000 := ⟨⟨(i 0).val / 8000, by rw [hN]; omega⟩, rfl⟩
  obtain ⟨-, -, e0, e1, -⟩ := idx_facts t
  refine ⟨t, flush0_7 t, ?_⟩
  rw [mem_oblk]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 64 ≤ (i 1).val ∧ (i 1).val < win0_7.index t (1 : Fin 2) * 64 + 64; omega

/-- THE RESULT ARRAY after the run is `result`: every block written back is a block of it, and the blocks cover it. -/
theorem final (c : Dev nD) : (dats m 0 c).arrAt 7 cfg0.N = result m c :=
  (dats m 0 c).arrAt_eq_of_cover 7 (result m c) (fun t _ => flushed_eq m c t) covered

/-! ## The run, read -/

/-- Every weakly fair execution of the kernel's program terminates with the result array at `result` and the
    arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Rows
end
-- ==== Proof.ReferenceRows.lean ====
/-
  The reference's result is the row-by-row function `RowMlp.rows` of its gathered feature array.

  The reference forms each layer over all 800000 rows at once: a product with the weight matrix, the bias spread
  over the rows, the rectifier as a comparison with the zero splat, a product with the slope splat, and a select.
  Read at entry `(r, c)`, the product is the sum over the shared coordinate of row `r` of the left factor against
  column `c` of the weights, the spread bias is the bias at `c`, and the three rectifier operations act on that one
  entry: a layer of `RowMlp` applied to row `r` of the layer before. The feature array itself (the sum of two
  gathers) is carried as it stands and never opened.
-/
import proofs.«154936_j32504312496840_2_alg».proof.Proof.Gen.ReferenceIdeal.Read
import proofs.«154936_j32504312496840_2_alg».proof.Proof.RowMlp

noncomputable section

namespace Cert.ReferenceIdeal.Rows

open Cert.ReferenceIdeal Cert.ReferenceIdeal.Gen Cert.ReferenceIdeal.Read Idealize.ShloMosaic Idealize.ShloMosaic.ValueIdx

/-- Entry `(r, c)` of the first rectified layer: row `r` of the feature array through the first layer, at column `c`. -/
theorem layer1_apply (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (r : Fin 800000) (c : Fin 128) :
    val_main_v27 (F := Ideal) x0 x1 x2 x3 (ix2 r c)
      = RowMlp.layer x2 x3 (fun k => val_main_v18 (F := Ideal) x0 x1 (ix2 r k)) c := by
  have el : ∀ k, lidx_main_v19 (ix2 r c) k = ix2 r k := fun k => funext fun a => Fin.ext (by
    match a with | ⟨0, _⟩ => rfl | ⟨1, _⟩ => rfl)
  have er : ∀ k, ridx_main_v19 (ix2 r c) k = ix2 k c := fun k => funext fun a => Fin.ext (by
    match a with | ⟨0, _⟩ => rfl | ⟨1, _⟩ => rfl)
  have eb : idx_main_v20 (idx_main_v21 (ix2 r c)) = ix1 c := funext fun a => Fin.ext (by
    match a with | ⟨0, _⟩ => rfl)
  rw [val_main_v27_apply, val_main_v24_apply, val_main_v26_apply, val_main_v23_apply, val_main_v25_apply,
    val_main_cst_apply, val_main_cst_3_apply, val_main_v22_apply, val_main_v19_apply, val_main_v21_apply,
    val_main_v20_apply]
  simp only [el, er, eb]
  rfl

/-- Entry `(r, c)` of the second rectified layer: row `r` of the first through the second layer, at column `c`. -/
theorem layer2_apply (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 800000) (c : Fin 128) :
    val_main_v36 (F := Ideal) x0 x1 x2 x3 x4 x5 (ix2 r c)
      = RowMlp.layer x4 x5 (fun k => val_main_v27 (F := Ideal) x0 x1 x2 x3 (ix2 r k)) c := by
  have el : ∀ k, lidx_main_v28 (ix2 r c) k = ix2 r k := fun k => funext fun a => Fin.ext (by
    match a with | ⟨0, _⟩ => rfl | ⟨1, _⟩ => rfl)
  have er : ∀ k, ridx_main_v28 (ix2 r c) k = ix2 k c := fun k => funext fun a => Fin.ext (by
    match a with | ⟨0, _⟩ => rfl | ⟨1, _⟩ => rfl)
  have eb : idx_main_v29 (idx_main_v30 (ix2 r c)) = ix1 c := funext fun a => Fin.ext (by
    match a with | ⟨0, _⟩ => rfl)
  rw [val_main_v36_apply, val_main_v33_apply, val_main_v35_apply, val_main_v32_apply, val_main_v34_apply,
    val_main_cst_4_apply, val_main_cst_5_apply, val_main_v31_apply, val_main_v28_apply, val_main_v30_apply,
    val_main_v29_apply]
  simp only [el, er, eb]
  rfl

/-- Entry `(r, q)` of the result: row `r` of the second rectified layer through the last layer, at column `q`. -/
theorem layer3_apply (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (r : Fin 800000) (q : Fin 64) :
    val_main_v45 (F := Ideal) x0 x1 x2 x3 x4 x5 x6 x7 (ix2 r q)
      = RowMlp.layer x6 x7 (fun k => val_main_v36 (F := Ideal) x0 x1 x2 x3 x4 x5 (ix2 r k)) q := by
  have el : ∀ k, lidx_main_v37 (ix2 r q) k = ix2 r k := fun k => funext fun a => Fin.ext (by
    match a with | ⟨0, _⟩ => rfl | ⟨1, _⟩ => rfl)
  have er : ∀ k, ridx_main_v37 (ix2 r q) k = ix2 k q := fun k => funext fun a => Fin.ext (by
    match a with | ⟨0, _⟩ => rfl | ⟨1, _⟩ => rfl)
  have eb : idx_main_v38 (idx_main_v39 (ix2 r q)) = ix1 q := funext fun a => Fin.ext (by
    match a with | ⟨0, _⟩ => rfl)
  rw [val_main_v45_apply, val_main_v42_apply, val_main_v44_apply, val_main_v41_apply, val_main_v43_apply,
    val_main_cst_6_apply, val_main_cst_7_apply, val_main_v40_apply, val_main_v37_apply, val_main_v39_apply,
    val_main_v38_apply]
  simp only [el, er, eb]
  rfl

/-- THE REFERENCE'S RESULT, as a whole array: its feature array taken through the three layers row by row. -/
theorem result_rows (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v45 (F := Ideal) x0 x1 x2 x3 x4 x5 x6 x7
      = RowMlp.rows (R := 800000) (val_main_v18 (F := Ideal) x0 x1) x2 x3 x4 x5 x6 x7 := by
  funext i
  obtain ⟨r, q, rfl⟩ : ∃ (r : Fin 800000) (q : Fin 64), i = ix2 r q := ⟨i 0, i 1, eq_ix2 i⟩
  rw [RowMlp.rows_ix2, layer3_apply]
  unfold RowMlp.row
  refine congrArg (fun h => RowMlp.layer x6 x7 h q) (funext fun k => ?_)
  rw [layer2_apply]
  refine congrArg (fun h => RowMlp.layer x4 x5 h k) (funext fun k' => ?_)
  exact layer1_apply x0 x1 x2 x3 r k'

end Cert.ReferenceIdeal.Rows

end
-- ==== Proof.FeatureArray.lean ====
/-
  The feature array the kernel's region finds is the reference's own feature array.

  Before the region the kernel's program forms, with host operations, the array whose row `e` is the sum of two
  rows of the node table: the rows numbered by the two entries of column `e` of the index table, an entry below
  zero first moved up by the table's 50000 rows. It then rounds the array to the narrow float format, which
  changes nothing on the extended reals. The reference forms the same sum with the same operations in the same
  order. So the contents the region finds in that buffer, read back through the host operations, are the
  reference's stage for that sum, applied to the same two arguments. The two gathers are never opened: both sides
  carry the one term.
-/
import proofs.«154936_j32504312496840_2_alg».proof.Proof.Gen.KernelIdeal.Frame
import proofs.«154936_j32504312496840_2_alg».proof.Proof.Gen.ReferenceIdeal.Read
import Idealize.ShloMosaic.Lib.StableHlo.Run

noncomputable section

namespace Cert.KernelIdeal.Rows

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 400000 in
/-- The feature buffer at region entry is the reference's gathered sum of the node table and the index table as
    launched. -/
theorem feat_eq (c : Dev nD) :
    (V m c main_v19 : S800000x64.Idx → EReal)
      = Cert.ReferenceIdeal.Read.val_main_v18 (F := Ideal) (m ((c : Thread nD τ).loc main_arg0)) (m ((c : Thread nD τ).loc main_arg1)) := by
  dsimp only [Gen.V, Gen.hostOps0]
  after_results
  rfl

end Cert.KernelIdeal.Rows

end
-- ==== Proof.lean ====
/-
  Edge features through a three-layer perceptron: the kernel and its reference compute one function.

  Both programs first form, on the host and with the same operations, the feature array whose row `e` is the sum of
  the two node-table rows that column `e` of the index table names. The reference then takes all 800000 rows through
  three dense layers, each followed by the leaky rectifier with the f32 slope 0.05, as whole-array operations. The
  kernel does the same inside a pipelined region: 100 grid points, each holding 8000 feature rows and the weights
  whole, each writing back its 8000 result rows.

  On the extended reals a change of float format is the identity and a matrix product into a zero accumulator is the
  plain sum over the shared coordinate, on both sides. An output row depends on the feature row of the same number
  only (`RowMlp.row`), so the blocked computation and the whole-array one agree entry by entry: both result arrays
  are `RowMlp.rows` of the one feature array. No law is used that could fail at an infinity — the two sides are the
  same expression in the same order — so the precondition is never opened.

  The three frames are the generated frame runs (the reference's is its generated run with the result dropped); the
  idealization rewrote nothing, so `preserves` is `True`.
-/
import proofs.«154936_j32504312496840_2_alg».proof.Defs
import proofs.«154936_j32504312496840_2_alg».proof.Proof.Gen.Kernel
import proofs.«154936_j32504312496840_2_alg».proof.Proof.Gen.Kernel.Skeleton
import proofs.«154936_j32504312496840_2_alg».proof.Proof.Gen.Kernel.Launch
import proofs.«154936_j32504312496840_2_alg».proof.Proof.Gen.Kernel.Points
import proofs.«154936_j32504312496840_2_alg».proof.Proof.Gen.Kernel.Frame
import proofs.«154936_j32504312496840_2_alg».proof.Proof.Gen.KernelIdeal
import proofs.«154936_j32504312496840_2_alg».proof.Proof.Gen.KernelIdeal.Skeleton
import proofs.«154936_j32504312496840_2_alg».proof.Proof.Gen.KernelIdeal.Launch
import proofs.«154936_j32504312496840_2_alg».proof.Proof.Gen.KernelIdeal.Points
import proofs.«154936_j32504312496840_2_alg».proof.Proof.Gen.KernelIdeal.Frame
import proofs.«154936_j32504312496840_2_alg».proof.Proof.Gen.KernelIdeal.Value
import proofs.«154936_j32504312496840_2_alg».proof.Proof.Gen.ReferenceIdeal
import proofs.«154936_j32504312496840_2_alg».proof.Proof.Gen.ReferenceIdeal.Run
import proofs.«154936_j32504312496840_2_alg».proof.Proof.Gen.ReferenceIdeal.Read
import proofs.«154936_j32504312496840_2_alg».proof.Proof.Gen.Pre_finite_inputs
import proofs.«154936_j32504312496840_2_alg».proof.Proof.KernelArray
import proofs.«154936_j32504312496840_2_alg».proof.Proof.ReferenceRows
import proofs.«154936_j32504312496840_2_alg».proof.Proof.FeatureArray
import Idealize.ShloMosaic.Adequacy
import Idealize.ShloMosaic.Init

noncomputable section

namespace Cert.Proof

open Idealize.ShloMosaic Idealize.ShloMosaic.TcCoe Idealize.SL.Sem

/-- The kernel's result array is the reference's result stage of the same arguments: the feature arrays agree
    (`feat_eq`), the weights reach the region as launched, and the reference's stage is `RowMlp.rows` of its feature
    array (`result_rows`). -/
theorem result_eq (m : (ℓ : Loc Cert.KernelIdeal.nD Cert.KernelIdeal.τ Cert.KernelIdeal.sig) → Buf (Elt Ideal) ℓ)
    (c : Dev Cert.KernelIdeal.nD) :
    Cert.KernelIdeal.Rows.result m c
      = Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.ReferenceIdeal.Rows.result_rows, ← Cert.KernelIdeal.Rows.feat_eq m c,
    ← Cert.KernelIdeal.Gen.V_main_arg2 m c, ← Cert.KernelIdeal.Gen.V_main_arg3 m c, ← Cert.KernelIdeal.Gen.V_main_arg4 m c,
    ← Cert.KernelIdeal.Gen.V_main_arg5 m c, ← Cert.KernelIdeal.Gen.V_main_arg6 m c, ← Cert.KernelIdeal.Gen.V_main_arg7 m c]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs run, and end with the one result array: the kernel's is
    `Rows.result` (its blocks assembled), the reference's is its generated run's term, and the two are equal by
    `result_eq` once the arguments' agreement is rewritten. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v45_eq, a0, a1, a2, a3, a4, a5, a6, a7]
  exact (result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
